-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S32 .f32) (main_arg9 : FVec F S32x3 .f32) (main_arg10 : FVec F S3 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x3 .f32 := Host.absf main_arg9
  let main_cst_14 : FVec F S_ .f32 := constant S_ .f32 0x7F800000#32
  let main_v40 : FVec F S32x3 .f32 := broadcastInDim S32x3 ![] bcast_S_S32x3 main_cst_14
  let main_v41 : IVec S32x3 1 := cmpf .olt main_v39 main_v40
  let main_c_15 : IVec S_ 1 := constantI S_ 1 1#1
  let main_v42 : IVec S_ 1 := (fun x v => Host.reduce IntOp.andi x v reducesTo_S32x3_S_d0_1 h_S_) main_v41 main_c_15
  let main_v43 : IVec S_ 1 := andi main_v38 main_v42
  let main_v44 : FVec F S3 .f32 := Host.absf main_arg10
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x32 .f32) (main_arg8 : FVec F S32 .f32) (main_arg9 : FVec F S32x3 .f32) (main_arg10 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x1 .f32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S32x3 .f32) (main_arg10 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S800000 : Shape := ⟨1, ![800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S2000x128 : Shape := ⟨2, ![2000, 128]⟩
abbrev S2000x64 : Shape := ⟨2, ![2000, 64]⟩
abbrev S850000x64 : Shape := ⟨2, ![850000, 64]⟩
abbrev S1x64 : Shape := ⟨2, ![1, 64]⟩
abbrev S1x32 : Shape := ⟨2, ![1, 32]⟩
abbrev S1x3 : Shape := ⟨2, ![1, 3]⟩
abbrev S50000x3 : Shape := ⟨2, ![50000, 3]⟩
abbrev S2000x3 : Shape := ⟨2, ![2000, 3]⟩
abbrev S2000x32 : Shape := ⟨2, ![2000, 32]⟩

abbrev nBuf : Space → Nat
  | .hbm => 98
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x3, .f32⟩
  | .hbm, ⟨10, _⟩ => ⟨S3, .f32⟩
  | .hbm, ⟨11, _⟩ => ⟨S800000, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x128, .bf16⟩
  | .hbm, ⟨55, _⟩ => ⟨S128x64, .bf16⟩
  | .hbm, ⟨56, _⟩ => ⟨S50000x64, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x64, .f32⟩
  | .hbm, ⟨66, _⟩ => ⟨S850000x1, .f32⟩
  | .hbm, ⟨67, _⟩ => ⟨S850000x64, .f32⟩
  | .hbm, ⟨68, _⟩ => ⟨S850000x64, .f32⟩
  | .hbm, ⟨69, _⟩ => ⟨S_, .f32⟩
  | .hbm, ⟨70, _⟩ => ⟨S50000x64, .f32⟩
  | .hbm, ⟨71, _⟩ => ⟨S850000x1, .i32⟩
  | .hbm, ⟨72, _⟩ => ⟨S50000x64, .f32⟩
  | .hbm, ⟨73, _⟩ => ⟨S64x64, .bf16⟩
  | .hbm, ⟨74, _⟩ => ⟨S1x64, .f32⟩
  | .hbm, ⟨75, _⟩ => ⟨S50000x64, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x1, .f32⟩
  | .hbm, ⟨86, _⟩ => ⟨S850000x64, .f32⟩
  | .hbm, ⟨87, _⟩ => ⟨S850000x64, .f32⟩
  | .hbm, ⟨88, _⟩ => ⟨S_, .f32⟩
  | .hbm, ⟨89, _⟩ => ⟨S50000x64, .f32⟩
  | .hbm, ⟨90, _⟩ => ⟨S850000x1, .i32⟩
  | .hbm, ⟨91, _⟩ => ⟨S50000x64, .f32⟩
  | .hbm, ⟨92, _⟩ => ⟨S64x32, .bf16⟩
  | .hbm, ⟨93, _⟩ => ⟨S32x3, .bf16⟩
  | .hbm, ⟨94, _⟩ => ⟨S1x64, .f32⟩
  | .hbm, ⟨95, _⟩ => ⟨S1x32, .f32⟩
  | .hbm, ⟨96, _⟩ => ⟨S1x3, .f32⟩
  | .hbm, ⟨97, _⟩ => ⟨S50000x3, .f32⟩
  | .local _ .vmem, ⟨0, _⟩ => ⟨S2000x128, .bf16⟩
  | .local _ .vmem, ⟨1, _⟩ => ⟨S2000x128, .bf16⟩
  | .local _ .vmem, ⟨2, _⟩ => ⟨S128x64, .bf16⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x64, .bf16⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x32, .bf16⟩
  | .local _ .vmem, ⟨15, _⟩ => ⟨S1x32, .f32⟩
  | .local _ .vmem, ⟨16, _⟩ => ⟨S32x3, .bf16⟩
  | .local _ .vmem, ⟨17, _⟩ => ⟨S1x3, .f32⟩
  | .local _ .vmem, ⟨18, _⟩ => ⟨S2000x3, .f32⟩
  | .local _ .vmem, ⟨19, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x32 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x3 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x3 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32_S1x32 : S32.ShapeCasts S1x32
  shapeCasts_S3_S1x3 : S3.ShapeCasts S1x3
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x3_S32x3_0_0 : ∀ a, (![0, 0] : Fin 2 → Nat) a + S32x3.size a ≤ S32x3.size a
  h_S32x3 : 0 < S32x3.numel
  shapeCasts_S32x3_S32x3 : S32x3.ShapeCasts S32x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x3_S2000x3_1_0_0_1_n_n_wf : DotDims.WF S2000x32 S32x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .bf16 = 32 ∨ (Rect.block (s := S64x32) S64x32.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x3.size a ≤ S32x3.size a
  hwx2_4 : ∀ i : grid2.Coords, EltTy.bits .bf16 = 32 ∨ (Rect.block (s := S32x3) S32x3.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x3.size a ≤ S1x3.size a
  hwx2_5 : ∀ i : grid2.Coords, EltTy.bits .f32 = 32 ∨ (Rect.block (s := S1x3) S1x3.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x3.size a ≤ S50000x3.size a
  hwx2_6 : ∀ i : grid2.Coords, EltTy.bits .f32 = 32 ∨ (Rect.block (s := S50000x3) S2000x3.size (cc2_transform_6 i) (hinb2_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x3_S2000x3_1_0_0_1_n_n : DotDims S2000x32 S32x3 S2000x3 where
  lhsContracting := [1]
  rhsContracting := [0]
  lhsNonContracting := [0]
  rhsNonContracting := [1]
  lhsBatch := []
  rhsBatch := []
  wf := dot_S2000x32_S32x3_S2000x3_1_0_0_1_n_n_wf

abbrev win0_0 : Pipeline.Window sig grid0 :=
  Pipeline.Window.ofSpec (Memref.whole main_v33) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S32x3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S2000x3.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S800000 : Shape := ⟨1, ![800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S1x32 : Shape := ⟨2, ![1, 32]⟩
abbrev S50000x3 : Shape := ⟨2, ![50000, 3]⟩
abbrev S1x3 : Shape := ⟨2, ![1, 3]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x32, .f32⟩
  | .hbm, ⟨8, _⟩ => ⟨S32, .f32⟩
  | .hbm, ⟨9, _⟩ => ⟨S32x3, .f32⟩
  | .hbm, ⟨10, _⟩ => ⟨S3, .f32⟩
  | .hbm, ⟨11, _⟩ => ⟨S800000, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S50000, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S50000x64, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x64, .f32⟩
  | .hbm, ⟨64, _⟩ => ⟨S850000x1, .f32⟩
  | .hbm, ⟨65, _⟩ => ⟨S850000x64, .f32⟩
  | .hbm, ⟨66, _⟩ => ⟨S850000x64, .f32⟩
  | .hbm, ⟨67, _⟩ => ⟨S_, .f32⟩
  | .hbm, ⟨68, _⟩ => ⟨S50000x64, .f32⟩
  | .hbm, ⟨69, _⟩ => ⟨S850000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x64, .f32⟩
  | .hbm, ⟨87, _⟩ => ⟨S850000x1, .f32⟩
  | .hbm, ⟨88, _⟩ => ⟨S850000x64, .f32⟩
  | .hbm, ⟨89, _⟩ => ⟨S850000x64, .f32⟩
  | .hbm, ⟨90, _⟩ => ⟨S_, .f32⟩
  | .hbm, ⟨91, _⟩ => ⟨S50000x64, .f32⟩
  | .hbm, ⟨92, _⟩ => ⟨S850000x1, .i32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S_, .f32⟩
  | .hbm, ⟨98, _⟩ => ⟨S50000x64, .f32⟩
  | .hbm, ⟨99, _⟩ => ⟨S50000x64, .f32⟩
  | .hbm, ⟨100, _⟩ => ⟨S50000x32, .f32⟩
  | .hbm, ⟨101, _⟩ => ⟨S1x32, .f32⟩
  | .hbm, ⟨102, _⟩ => ⟨S50000x32, .f32⟩
  | .hbm, ⟨103, _⟩ => ⟨S50000x32, .f32⟩
  | .hbm, ⟨104, _⟩ => ⟨S_, .f32⟩
  | .hbm, ⟨105, _⟩ => ⟨S50000x32, .f32⟩
  | .hbm, ⟨106, _⟩ => ⟨S50000x32, .f32⟩
  | .hbm, ⟨107, _⟩ => ⟨S50000x3, .f32⟩
  | .hbm, ⟨108, _⟩ => ⟨S1x3, .f32⟩
  | .hbm, ⟨109, _⟩ => ⟨S50000x3, .f32⟩
  | .hbm, ⟨110, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call1_cst : Ref sig .tc := ⟨.hbm, 74, rfl⟩
abbrev main_call1_v0 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call2_cst : Ref sig .tc := ⟨.hbm, 97, rfl⟩
abbrev main_call2_v0 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call3_cst : Ref sig .tc := ⟨.hbm, 104, rfl⟩
abbrev main_call3_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  shapeCasts_S800000x1_S800000 : S800000x1.ShapeCasts S800000
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x3_S50000x3_1_0_0_1_n_n_wf : DotDims.WF S50000x32 S32x3 S50000x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x3_S50000x3_1_0_0_1_n_n : DotDims S50000x32 S32x3 S50000x3 where
  lhsContracting := [1]
  rhsContracting := [0]
  lhsNonContracting := [0]
  rhsNonContracting := [1]
  lhsBatch := []
  rhsBatch := []
  wf := dot_S50000x32_S32x3_S50000x3_1_0_0_1_n_n_wf

class Facts : Prop extends Facts₀ where

variable [Facts]
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«175862_j63488206570136_2_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.RefSpec.lean ====
/-
  The network as one function of its eleven arguments, and the reference program read as that function.

  A layer gathers, for every edge (and every node's self-loop), the row of Z at the edge's source node, scales it by
  the edge's weight in the normalised graph, and adds it into the row of the edge's target node: `agg`.  The weights
  and the two index lists depend on the edge arguments only; the matrix Z is the one thing a layer feeds in.  The
  network is
      out = shift (relu-bias (relu-bias (agg (relu-bias (agg (X · W0)) b0 · W1)) b1 · cW1) cb1 · cW2) cb2
  with `prod`, `act` (bias, then maximum with zero) and `shift` (bias) the dense pieces of LibDense.lean.  The
  reference spells each product as a dot_general and each bias as two broadcasts; stage by stage its value is this
  function.  Nothing here looks inside `agg`.
-/
import proofs.«175862_j63488206570136_2_alg».proof.Proof.Gen.ReferenceIdeal.Read
import proofs.«175862_j63488206570136_2_alg».proof.Proof.LibDense

noncomputable section

namespace Cert.ReferenceIdeal.Hand

open Cert.ReferenceIdeal Cert.ReferenceIdeal.Gen Cert.ReferenceIdeal.Read Idealize.ShloMosaic Cert.Dense

/-- One message-passing step on the fixed graph: rows of `z` gathered at the edges' source nodes, scaled by the
    edges' weights, added into the rows of the edges' target nodes (starting from zero). -/
def agg (x1 : (⟨S2x800000, .i32⟩ : BufTy).Contents (Elt Ideal)) (x2 : (⟨S800000x1, .f32⟩ : BufTy).Contents (Elt Ideal))
    (z : (⟨S50000x64, .f32⟩ : BufTy).Contents (Elt Ideal)) : (⟨S50000x64, .f32⟩ : BufTy).Contents (Elt Ideal) :=
  Host.scatterAdd (F := Ideal) (φ := .f32) scatter_S50000x64_S850000x1_S850000x64_1_0_0_1 (val_main_v44 (F := Ideal)) (val_main_v45 (F := Ideal) x1)
    (mulf (F := Ideal) (φ := .f32) (Host.gather gather_S50000x64_S850000x1_S850000x64_1_0_n_n_0_1_164 z (val_main_v39 (F := Ideal) x1)) (val_main_v42 (F := Ideal) x1 x2))

variable (x0 : (⟨S50000x128, .f32⟩ : BufTy).Contents (Elt Ideal)) (x1 : (⟨S2x800000, .i32⟩ : BufTy).Contents (Elt Ideal))
  (x2 : (⟨S800000x1, .f32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x32, .f32⟩ : BufTy).Contents (Elt Ideal))
  (x8 : (⟨S32, .f32⟩ : BufTy).Contents (Elt Ideal)) (x9 : (⟨S32x3, .f32⟩ : BufTy).Contents (Elt Ideal))
  (x10 : (⟨S3, .f32⟩ : BufTy).Contents (Elt Ideal))

/-- The hidden features after the first layer's transform of the second: relu (agg (X · W0) + b0) · W1. -/
def hidden1 : (⟨S50000x64, .f32⟩ : BufTy).Contents (Elt Ideal) :=
  prod (act (agg x1 x2 (prod x0 x3)) (val_main_v47 (F := Ideal) x4)) x5

/-- The network's output. -/
def net : (⟨S50000x3, .f32⟩ : BufTy).Contents (Elt Ideal) :=
  shift (prod (act (prod (act (agg x1 x2 (hidden1 x0 x1 x2 x3 x4 x5)) (val_main_v65 (F := Ideal) x6)) x7) (val_main_v70 (F := Ideal) x8)) x9)
    (val_main_v75 (F := Ideal) x10)

theorem stage33 : val_main_v33 (F := Ideal) x0 x3 = prod x0 x3 :=
  dotGeneral_eq_prod dot_S50000x128_S128x64_S50000x64_1_0_0_1_n_n rfl rfl lhs_main_v33_0 lhs_main_v33_1 rhs_main_v33_0 rhs_main_v33_1 none x0 x3

theorem stage46 : val_main_v46 (F := Ideal) x0 x1 x2 x3 = agg x1 x2 (prod x0 x3) := by
  unfold val_main_v46 val_main_v43 val_main_v40
  rw [stage33]
  rfl

theorem stage50 : val_main_v50 (F := Ideal) x0 x1 x2 x3 x4 = act (agg x1 x2 (prod x0 x3)) (val_main_v47 (F := Ideal) x4) := by
  unfold val_main_v50 val_main_v49 val_main_v48 val_main_call1_v0 val_main_call1_cst
  rw [stage46]
  exact host_act _ _ bcast_S1x64_S50000x64_0_1 bcast_S_S50000x64

theorem stage51 : val_main_v51 (F := Ideal) x0 x1 x2 x3 x4 x5 = hidden1 x0 x1 x2 x3 x4 x5 := by
  unfold val_main_v51 hidden1
  rw [stage50]
  exact dotGeneral_eq_prod dot_S50000x64_S64x64_S50000x64_1_0_0_1_n_n rfl rfl lhs_main_v51_0 lhs_main_v51_1 rhs_main_v51_0 rhs_main_v51_1 none _ x5

theorem stage64 : val_main_v64 (F := Ideal) x0 x1 x2 x3 x4 x5 = agg x1 x2 (hidden1 x0 x1 x2 x3 x4 x5) := by
  unfold val_main_v64 val_main_v61 val_main_v58
  rw [stage51]
  rfl

theorem stage68 : val_main_v68 (F := Ideal) x0 x1 x2 x3 x4 x5 x6
    = act (agg x1 x2 (hidden1 x0 x1 x2 x3 x4 x5)) (val_main_v65 (F := Ideal) x6) := by
  unfold val_main_v68 val_main_v67 val_main_v66 val_main_call2_v0 val_main_call2_cst
  rw [stage64]
  exact host_act _ _ bcast_S1x64_S50000x64_0_1 bcast_S_S50000x64

theorem stage69 : val_main_v69 (F := Ideal) x0 x1 x2 x3 x4 x5 x6 x7
    = prod (act (agg x1 x2 (hidden1 x0 x1 x2 x3 x4 x5)) (val_main_v65 (F := Ideal) x6)) x7 := by
  unfold val_main_v69
  rw [stage68]
  exact dotGeneral_eq_prod dot_S50000x64_S64x32_S50000x32_1_0_0_1_n_n rfl rfl lhs_main_v69_0 lhs_main_v69_1 rhs_main_v69_0 rhs_main_v69_1 none _ x7

theorem stage73 : val_main_v73 (F := Ideal) x0 x1 x2 x3 x4 x5 x6 x7 x8
    = act (prod (act (agg x1 x2 (hidden1 x0 x1 x2 x3 x4 x5)) (val_main_v65 (F := Ideal) x6)) x7) (val_main_v70 (F := Ideal) x8) := by
  unfold val_main_v73 val_main_v72 val_main_v71 val_main_call3_v0 val_main_call3_cst
  rw [stage69]
  exact host_act _ _ bcast_S1x32_S50000x32_0_1 bcast_S_S50000x32

/-- The reference's result is the network of its arguments. -/
theorem reference_eq : val_main_v77 (F := Ideal) x0 x1 x2 x3 x4 x5 x6 x7 x8 x9 x10 = net x0 x1 x2 x3 x4 x5 x6 x7 x8 x9 x10 := by
  unfold val_main_v77 val_main_v76 val_main_v74 net
  rw [stage73]
  rw [dotGeneral_eq_prod dot_S50000x32_S32x3_S50000x3_1_0_0_1_n_n rfl rfl lhs_main_v74_0 lhs_main_v74_1 rhs_main_v74_0 rhs_main_v74_1 none _ x9]
  exact host_shift _ _ bcast_S1x3_S50000x3_0_1

end Cert.ReferenceIdeal.Hand

end
-- ==== Proof.KernelRun.lean ====
/-
  The whole program's run with its result named.

  The program is three kernel launches among stretches of host operations.  Every weakly fair execution terminates,
  and in every final state each buffer that outlives the launches holds what the chain of boundary contents says: the
  contents after the last launch.  Read here at the result buffer and at the eleven arguments (which nothing writes).
-/
import proofs.«175862_j63488206570136_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the contents after the third launch, the
    arguments as launched. -/
theorem run : θ_run defs (onTc (τ := τ) (main (F := F))) ⟨m, fun _ => 0, ρ⟩ (fun r => ∀ c : Dev nD,
      r.2.mem ((c.tc : Thread nD τ).loc main_v70) = W8 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v70 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.Whole

end
-- ==== Proof.Stage0.lean ====
/-
  The first dense stage of the graph-convolution network: Z0 = X · W0.

  The node axis (50000 rows) is cut into 25 blocks of 2000 rows; at block t the kernel multiplies rows
  2000·t … 2000·t + 1999 of X (all 128 columns) by the whole of W0 and writes rows 2000·t … 2000·t + 1999 of the
  result.  Row r of a product depends only on row r of the left factor, so block t of the result is block t of the
  product of the whole arrays, and the 25 blocks fill the 50000 rows: the result array ends holding X · W0, for any
  contents the arrays have when the stage is entered.
-/
import proofs.«175862_j63488206570136_2_alg».proof.Proof.Gen.KernelIdeal.Frame
import proofs.«175862_j63488206570136_2_alg».proof.Proof.LibDense
import Idealize.ShloMosaic.Lib.Pipeline.Value
import Idealize.ShloMosaic.Lib.ValueIdx

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-! ## The product's dimension numbers: rows of the left factor against columns of the right one -/

theorem lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- What the body stores: the product of the block of rows it loaded and the weight matrix. -/
theorem stored (x0 : Vec Ideal S2000x128 .bf16) (x1 : Vec Ideal S128x64 .bf16) :
    k0_pay1 x0 x1 = Cert.Dense.prod x0 x1 := by
  unfold k0_pay1
  dsimp only
  rw [shapeCast_self, shapeCast_self]
  exact Cert.Dense.matmul_zero_eq_prod dot_S2000x128_S128x64_S2000x64_1_0_0_1_n_n rfl rfl lhs_row lhs_col rhs_row rhs_col none x0 x1

/-- The windows' block indices at grid point t: the row blocks move with t, the weights stay. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of X · W0, X and W0 the arrays as the stage finds them. -/
theorem flushed_eq (c : Dev nD) (t : Fin cfg0.N) :
    (dat0 V c).flushed 2 t = ((cfg0.win 2).blk t).view.read (Elt Ideal) (Cert.Dense.prod (V c main_v33) (V c main_v34)) := by
  show (cfg0.win 2).cut (grid0.coords t) ((dat0 V c).after 2 t) = _
  rw [after0_2]
  unfold out0_2
  rw [View.canon_unit_zero zeros]
  simp only [View.ld_unit_zero (S := S2000x128) zeros, View.ld_unit_zero (S := S128x64) zeros]
  rw [stored]
  obtain ⟨e0, e1, e2, e3, e4, e5⟩ := block_indices t
  funext j
  show Cert.Dense.prod (fun y => V c main_v33 (((cfg0.win 0).blk t).view.emb y)) (fun y => V c main_v34 (((cfg0.win 1).blk t).view.emb y)) j
    = Cert.Dense.prod (V c main_v33) (V c main_v34) (((cfg0.win 2).blk t).view.emb j)
  refine Cert.Dense.prod_reindex (V c main_v33) (V c main_v34) _ _ j _ (fun k => ?_) (fun k => ?_)
  · funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the result array is in point t's block iff each coordinate is in the block's range. -/
theorem mem_block (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v35).slice (win0_2.rect t)).set ↔ _
  rw [View.set_slice_whole, Rect.mem_set_unit]
  exact Iff.rfl

/-- Row r of the result lies in block r / 2000. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_2 _, ?_⟩
  rw [mem_block]
  obtain ⟨e0, e1, e2, e3, e4, e5⟩ := block_indices ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 64 ≤ (i 1).val ∧ (i 1).val < win0_2.index _ (1 : Fin 2) * 64 + 64
    rw [e5]; omega

/-- After the stage the result array holds X · W0. -/
theorem result (c : Dev nD) : (dat0 V c).arrAt 2 cfg0.N = Cert.Dense.prod (V c main_v33) (V c main_v34) :=
  (dat0 V c).arrAt_eq_of_cover 2 _ (fun t _ => flushed_eq V c t) covered

end Cert.KernelIdeal.Stage0

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«175862_j63488206570136_2_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.Stage1.lean ====
/-
  The second dense stage: Z1 = relu (A0 + b0) · W1, A0 the first layer's aggregated messages, b0 its bias as one row.

  As in the first stage the 50000 rows are cut into 25 blocks of 2000; at block t the kernel adds the bias row to the
  2000 rows of A0 it holds, takes the maximum with zero, multiplies by the whole of W1 and writes the same 2000 rows of
  the result.  Bias, relu and the product each act on a row by itself, so block t of the result is block t of
  relu (A0 + b0) · W1 of the whole arrays, whatever these hold when the stage is entered.
-/
import proofs.«175862_j63488206570136_2_alg».proof.Proof.Gen.KernelIdeal.Frame
import proofs.«175862_j63488206570136_2_alg».proof.Proof.LibDense
import Idealize.ShloMosaic.Lib.Pipeline.Value
import Idealize.ShloMosaic.Lib.ValueIdx
import proofs.«175862_j63488206570136_2_alg».proof.Proof.LibRowBlocks

noncomputable section

namespace Cert.KernelIdeal.Stage1

open Cert.KernelIdeal Cert.KernelIdeal.Gen Idealize.ShloMosaic Idealize.ShloMosaic.TcCoe Idealize.SL.Sem
open Idealize.ShloMosaic.ValueIdx Cert.Dense Cert.RowBlocks
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-! ## The product's dimension numbers -/

theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- What the body stores: bias and relu on the rows it loaded, then the product with the weights (the rounding to
    the matrix unit's input format is the identity on the extended reals). -/
theorem stored (x0 : Vec Ideal S2000x64 .f32) (x1 : Vec Ideal S1x64 .f32) (x2 : Vec Ideal S64x64 .bf16) :
    k1_pay1 x0 x1 x2 = prod (act x0 x1) x2 := by
  have ew : shapeCast S64x64 x2 shapeCasts_S64x64_S64x64 = x2 := shapeCast_self _ _
  have ea : truncf (F := Ideal) .bf16 (maximumf (addf (shapeCast S2000x64 x0 shapeCasts_S2000x64_S2000x64)
        (broadcastTo S2000x64 (shapeCast S1x64 x1 shapeCasts_S1x64_S1x64) broadcasts_S1x64_S2000x64))
        (broadcast S2000x64 (Scalar.ofBits (F := Ideal) .f32 0x00000000#32))) bitsLt_bf16_f32 = act x0 x1 :=
    act_cast x0 x1 shapeCasts_S2000x64_S2000x64 shapeCasts_S1x64_S1x64 broadcasts_S1x64_S2000x64
  unfold k1_pay1
  dsimp only
  rw [ew, ea]
  exact matmul_zero_eq_prod dot_S2000x64_S64x64_S2000x64_1_0_0_1_n_n rfl rfl lhs_row lhs_col rhs_row rhs_col none (act x0 x1) x2

/-- The windows' block indices at grid point t: the row blocks move with t, bias and weights stay. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem in_range (t : Fin cfg1.N) : t.val * 2000 + 2000 ≤ 50000 := by
  have hN : cfg1.N = 25 := N_1
  have := t.isLt
  omega

/-- The body's value on a block of rows, read at one entry: if the three loaded blocks are rows n·2000 … of A, the
    whole bias row and the whole weight matrix, the stored entry j is the entry of relu (A + b) · W in the same row of
    the whole matrix. -/
theorem block_value (A : S50000x64.Idx → EReal) (B : S1x64.Idx → EReal) (W : S64x64.Idx → EReal)
    (f0 : S2000x64.Idx → EReal) (f1 : S1x64.Idx → EReal) (f2 : S64x64.Idx → EReal) (n : ℕ) (h : n * 2000 + 2000 ≤ 50000)
    (h0 : ∀ y, f0 y = A (up n h y)) (h1 : ∀ y, f1 y = B y) (h2 : ∀ y, f2 y = W y)
    (j : S2000x64.Idx) (i : S50000x64.Idx) (hi : i = up n h j) :
    prod (act f0 f1) f2 j = prod (act A B) W i := by
  obtain rfl : f0 = fun y => A (up n h y) := funext h0
  obtain rfl : f1 = B := funext h1
  obtain rfl : f2 = W := funext h2
  subst hi
  rw [act_up, prod_up]

/-- What grid point t writes back is block t of relu (A0 + b0) · W1 of the arrays as the stage finds them. -/
theorem flushed_eq (c : Dev nD) (t : Fin cfg1.N) :
    (dat1 V c).flushed 3 t = ((cfg1.win 3).blk t).view.read (Elt Ideal)
      (prod (act (V c main_v48) (V c main_v50)) (V c main_v49)) := by
  show (cfg1.win 3).cut (grid1.coords t) ((dat1 V c).after 3 t) = _
  rw [after1_3]
  unfold out1_3
  rw [View.canon_unit_zero zeros]
  simp only [View.ld_unit_zero (S := S2000x64) zeros, View.ld_unit_zero (S := S1x64) zeros, View.ld_unit_zero (S := S64x64) zeros]
  rw [stored]
  obtain ⟨e0, e1, e2, e3, e4, e5, e6, e7⟩ := block_indices t
  have h0 : ∀ y : S2000x64.Idx, ((cfg1.win 0).blk t).view.emb y = up t.val (in_range t) y := fun y =>
    funext fun a => Fin.ext (by
      match a with
      | ⟨0, _⟩ => show win1_0.index t (0 : Fin 2) * 2000 + 1 * (y 0).val = t.val * 2000 + (y 0).val; omega
      | ⟨1, _⟩ => show win1_0.index t (1 : Fin 2) * 64 + 1 * (y 1).val = (y 1).val; omega)
  have h1 : ∀ y : S1x64.Idx, ((cfg1.win 1).blk t).view.emb y = y := fun y =>
    funext fun a => Fin.ext (by
      match a with
      | ⟨0, _⟩ => show win1_1.index t (0 : Fin 2) * 1 + 1 * (y 0).val = (y 0).val; omega
      | ⟨1, _⟩ => show win1_1.index t (1 : Fin 2) * 64 + 1 * (y 1).val = (y 1).val; omega)
  have h2 : ∀ y : S64x64.Idx, ((cfg1.win 2).blk t).view.emb y = y := fun y =>
    funext fun a => Fin.ext (by
      match a with
      | ⟨0, _⟩ => show win1_2.index t (0 : Fin 2) * 64 + 1 * (y 0).val = (y 0).val; omega
      | ⟨1, _⟩ => show win1_2.index t (1 : Fin 2) * 64 + 1 * (y 1).val = (y 1).val; omega)
  have h3 : ∀ y : S2000x64.Idx, ((cfg1.win 3).blk t).view.emb y = up t.val (in_range t) y := fun y =>
    funext fun a => Fin.ext (by
      match a with
      | ⟨0, _⟩ => show win1_3.index t (0 : Fin 2) * 2000 + 1 * (y 0).val = t.val * 2000 + (y 0).val; omega
      | ⟨1, _⟩ => show win1_3.index t (1 : Fin 2) * 64 + 1 * (y 1).val = (y 1).val; omega)
  funext j
  exact block_value (V c main_v48) (V c main_v50) (V c main_v49) (iblk1 V c 0 t) (iblk1 V c 1 t) (iblk1 V c 2 t) t.val (in_range t)
    (fun y => congrArg (V c main_v48) (h0 y)) (fun y => congrArg (V c main_v50) (h1 y)) (fun y => congrArg (V c main_v49) (h2 y))
    j _ (h3 j)

/-- An index of the result array is in point t's block iff each coordinate is in the block's range. -/
theorem mem_block (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v51).slice (win1_3.rect t)).set ↔ _
  rw [View.set_slice_whole, Rect.mem_set_unit]
  exact Iff.rfl

/-- Row r of the result lies in block r / 2000. -/
theorem covered (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_3 _, ?_⟩
  rw [mem_block]
  obtain ⟨e0, e1, e2, e3, e4, e5, e6, e7⟩ := block_indices ⟨(i 0).val / 2000, by rw [hN]; omega⟩
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 64 ≤ (i 1).val ∧ (i 1).val < win1_3.index _ (1 : Fin 2) * 64 + 64
    rw [e7]; omega

/-- After the stage the result array holds relu (A0 + b0) · W1. -/
theorem result (c : Dev nD) : (dat1 V c).arrAt 3 cfg1.N = prod (act (V c main_v48) (V c main_v50)) (V c main_v49) :=
  (dat1 V c).arrAt_eq_of_cover 3 _ (fun t _ => flushed_eq V c t) covered

end Cert.KernelIdeal.Stage1

end
-- ==== Proof.Stage2.lean ====
/-
  The last dense stage, the classifier: out = relu (relu (A1 + b1) · cW1 + cb1) · cW2 + cb2, A1 the second layer's
  aggregated messages, the three biases one row each.

  The 50000 rows are cut into 25 blocks of 2000; at block t the kernel runs the whole chain on the 2000 rows of A1 it
  holds, against the whole weight matrices and bias rows, and writes the same 2000 rows of the result (3 columns).
  Every step of the chain acts on a row by itself, so block t of the result is block t of the chain applied to the
  whole arrays, whatever these hold when the stage is entered.
-/
import proofs.«175862_j63488206570136_2_alg».proof.Proof.Gen.KernelIdeal.Frame
import proofs.«175862_j63488206570136_2_alg».proof.Proof.LibDense
import Idealize.ShloMosaic.Lib.Pipeline.Value
import Idealize.ShloMosaic.Lib.ValueIdx
import proofs.«175862_j63488206570136_2_alg».proof.Proof.LibRowBlocks

noncomputable section

namespace Cert.KernelIdeal.Stage2

open Cert.KernelIdeal Cert.KernelIdeal.Gen Idealize.ShloMosaic Idealize.ShloMosaic.TcCoe Idealize.SL.Sem
open Idealize.ShloMosaic.ValueIdx Cert.Dense Cert.RowBlocks
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-! ## The two products' dimension numbers -/

theorem first_lhs_row (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem first_lhs_col (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
theorem first_rhs_row (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
theorem first_rhs_col (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

theorem second_lhs_row (i : S2000x3.Idx) (q : dot_S2000x32_S32x3_S2000x3_1_0_0_1_n_n.contr.Idx) :
    (dot_S2000x32_S32x3_S2000x3_1_0_0_1_n_n.lhsIdx i q 0).val = (i 0).val := by
  unfold DotDims.lhsIdx
  rw [dif_neg (show ¬(0 : Fin S2000x32.rank) ∈ dot_S2000x32_S32x3_S2000x3_1_0_0_1_n_n.lhsBatch by decide), dif_pos (show (0 : Fin S2000x32.rank) ∈ dot_S2000x32_S32x3_S2000x3_1_0_0_1_n_n.lhsNonContracting by decide)]
  rfl
theorem second_lhs_col (i : S2000x3.Idx) (q : dot_S2000x32_S32x3_S2000x3_1_0_0_1_n_n.contr.Idx) :
    (dot_S2000x32_S32x3_S2000x3_1_0_0_1_n_n.lhsIdx i q 1).val = (q ⟨0, by decide⟩).val :=
  dot_S2000x32_S32x3_S2000x3_1_0_0_1_n_n.lhsIdx_val_of_single rfl i q
theorem second_rhs_row (i : S2000x3.Idx) (q : dot_S2000x32_S32x3_S2000x3_1_0_0_1_n_n.contr.Idx) :
    (dot_S2000x32_S32x3_S2000x3_1_0_0_1_n_n.rhsIdx i q 0).val = (q ⟨0, by decide⟩).val :=
  dot_S2000x32_S32x3_S2000x3_1_0_0_1_n_n.rhsIdx_val_of_single rfl i q
theorem second_rhs_col (i : S2000x3.Idx) (q : dot_S2000x32_S32x3_S2000x3_1_0_0_1_n_n.contr.Idx) :
    (dot_S2000x32_S32x3_S2000x3_1_0_0_1_n_n.rhsIdx i q 1).val = (i 1).val := by
  unfold DotDims.rhsIdx
  rw [dif_neg (show ¬(1 : Fin S32x3.rank) ∈ dot_S2000x32_S32x3_S2000x3_1_0_0_1_n_n.rhsBatch by decide), dif_pos (show (1 : Fin S32x3.rank) ∈ dot_S2000x32_S32x3_S2000x3_1_0_0_1_n_n.rhsNonContracting by decide)]
  rfl

/-- The classifier chain on matrices of any number of rows. -/
def chain {A : ℕ} (a : (⟨2, ![A, 64]⟩ : Shape).Idx → EReal) (b1 : (⟨2, ![1, 64]⟩ : Shape).Idx → EReal)
    (w1 : (⟨2, ![64, 32]⟩ : Shape).Idx → EReal) (c1 : (⟨2, ![1, 32]⟩ : Shape).Idx → EReal)
    (w2 : (⟨2, ![32, 3]⟩ : Shape).Idx → EReal) (c2 : (⟨2, ![1, 3]⟩ : Shape).Idx → EReal) : (⟨2, ![A, 3]⟩ : Shape).Idx → EReal :=
  shift (prod (act (prod (act a b1) w1) c1) w2) c2

/-- What the body stores: the chain on the rows it loaded (the two roundings to the matrix unit's input format are
    the identity on the extended reals). -/
theorem stored (x0 : Vec Ideal S2000x64 .f32) (x1 : Vec Ideal S1x64 .f32) (x2 : Vec Ideal S64x32 .bf16)
    (x3 : Vec Ideal S1x32 .f32) (x4 : Vec Ideal S32x3 .bf16) (x5 : Vec Ideal S1x3 .f32) :
    k2_pay1 x0 x1 x2 x3 x4 x5 = chain x0 x1 x2 x3 x4 x5 := by
  have ew1 : shapeCast S64x32 x2 shapeCasts_S64x32_S64x32 = x2 := shapeCast_self _ _
  have ew2 : shapeCast S32x3 x4 shapeCasts_S32x3_S32x3 = x4 := shapeCast_self _ _
  have ea1 : truncf (F := Ideal) .bf16 (maximumf (addf (shapeCast S2000x64 x0 shapeCasts_S2000x64_S2000x64)
        (broadcastTo S2000x64 (shapeCast S1x64 x1 shapeCasts_S1x64_S1x64) broadcasts_S1x64_S2000x64))
        (broadcast S2000x64 (Scalar.ofBits (F := Ideal) .f32 0x00000000#32))) bitsLt_bf16_f32 = act x0 x1 :=
    act_cast x0 x1 shapeCasts_S2000x64_S2000x64 shapeCasts_S1x64_S1x64 broadcasts_S1x64_S2000x64
  have m1 : matmul (F := Ideal) dot_S2000x64_S64x32_S2000x32_1_0_0_1_n_n none (φ₁ := .bf16) (φ₂ := .bf16) (act x0 x1) x2
      (constant S2000x32 .f32 0x00000000#32) = prod (act x0 x1) x2 :=
    matmul_zero_eq_prod (φ₁ := .bf16) (φ₂ := .bf16) dot_S2000x64_S64x32_S2000x32_1_0_0_1_n_n rfl rfl first_lhs_row first_lhs_col first_rhs_row first_rhs_col none (act x0 x1) x2
  have ea2 : truncf (F := Ideal) .bf16 (maximumf (addf (prod (act x0 x1) x2 : FVec Ideal S2000x32 .f32)
        (broadcastTo S2000x32 (shapeCast S1x32 x3 shapeCasts_S1x32_S1x32) broadcasts_S1x32_S2000x32))
        (broadcast S2000x32 (Scalar.ofBits (F := Ideal) .f32 0x00000000#32))) bitsLt_bf16_f32 = act (prod (act x0 x1) x2) x3 :=
    act_plain (prod (act x0 x1) x2) x3 shapeCasts_S1x32_S1x32 broadcasts_S1x32_S2000x32
  have m2 : matmul (F := Ideal) dot_S2000x32_S32x3_S2000x3_1_0_0_1_n_n none (φ₁ := .bf16) (φ₂ := .bf16) (act (prod (act x0 x1) x2) x3) x4
      (constant S2000x3 .f32 0x00000000#32) = prod (act (prod (act x0 x1) x2) x3) x4 :=
    matmul_zero_eq_prod (φ₁ := .bf16) (φ₂ := .bf16) dot_S2000x32_S32x3_S2000x3_1_0_0_1_n_n rfl rfl second_lhs_row second_lhs_col second_rhs_row second_rhs_col none (act (prod (act x0 x1) x2) x3) x4
  unfold k2_pay1 chain
  dsimp only
  rw [ew1, ew2, ea1, m1, ea2, m2]
  exact shift_plain _ x5 shapeCasts_S1x3_S1x3 broadcasts_S1x3_S2000x3

/-- The windows' block indices at grid point t: the row blocks move with t, weights and biases stay. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem in_range (t : Fin cfg2.N) : t.val * 2000 + 2000 ≤ 50000 := by
  have hN : cfg2.N = 25 := N_2
  have := t.isLt
  omega

/-- A block of rows of the chain is the chain of the block of rows. -/
theorem chain_up (n : ℕ) (h : n * 2000 + 2000 ≤ 50000) (a : (⟨2, ![50000, 64]⟩ : Shape).Idx → EReal)
    (b1 : (⟨2, ![1, 64]⟩ : Shape).Idx → EReal) (w1 : (⟨2, ![64, 32]⟩ : Shape).Idx → EReal)
    (c1 : (⟨2, ![1, 32]⟩ : Shape).Idx → EReal) (w2 : (⟨2, ![32, 3]⟩ : Shape).Idx → EReal)
    (c2 : (⟨2, ![1, 3]⟩ : Shape).Idx → EReal) :
    chain (fun y => a (up (R := 2000) n h y)) b1 w1 c1 w2 c2 = fun j => chain a b1 w1 c1 w2 c2 (up (R := 2000) n h j) := by
  unfold chain
  rw [act_up, prod_up, act_up, prod_up, shift_up]

/-- The body's value on a block of rows, read at one entry: if the loaded blocks are rows n·2000 … of A and the whole
    bias rows and weight matrices, the stored entry j is the entry of the chain in the same row of the whole matrix. -/
theorem block_value (A : S50000x64.Idx → EReal) (B1 : S1x64.Idx → EReal) (W1 : S64x32.Idx → EReal) (C1 : S1x32.Idx → EReal)
    (W2 : S32x3.Idx → EReal) (C2 : S1x3.Idx → EReal)
    (f0 : S2000x64.Idx → EReal) (f1 : S1x64.Idx → EReal) (f2 : S64x32.Idx → EReal) (f3 : S1x32.Idx → EReal)
    (f4 : S32x3.Idx → EReal) (f5 : S1x3.Idx → EReal) (n : ℕ) (h : n * 2000 + 2000 ≤ 50000)
    (h0 : ∀ y, f0 y = A (up n h y)) (h1 : ∀ y, f1 y = B1 y) (h2 : ∀ y, f2 y = W1 y) (h3 : ∀ y, f3 y = C1 y)
    (h4 : ∀ y, f4 y = W2 y) (h5 : ∀ y, f5 y = C2 y)
    (j : S2000x3.Idx) (i : S50000x3.Idx) (hi : i = up n h j) :
    chain f0 f1 f2 f3 f4 f5 j = chain A B1 W1 C1 W2 C2 i := by
  obtain rfl : f0 = fun y => A (up n h y) := funext h0
  obtain rfl : f1 = B1 := funext h1
  obtain rfl : f2 = W1 := funext h2
  obtain rfl : f3 = C1 := funext h3
  obtain rfl : f4 = W2 := funext h4
  obtain rfl : f5 = C2 := funext h5
  subst hi
  rw [chain_up]

/-- What grid point t writes back is block t of the chain of the arrays as the stage finds them. -/
theorem flushed_eq (c : Dev nD) (t : Fin cfg2.N) :
    (dat2 V c).flushed 6 t = ((cfg2.win 6).blk t).view.read (Elt Ideal)
      (chain (V c main_v64) (V c main_v67) (V c main_v65) (V c main_v68) (V c main_v66) (V c main_v69)) := by
  show (cfg2.win 6).cut (grid2.coords t) ((dat2 V c).after 6 t) = _
  rw [after2_6]
  unfold out2_6
  rw [View.canon_unit_zero zeros]
  simp only [View.ld_unit_zero (S := S2000x64) zeros, View.ld_unit_zero (S := S1x64) zeros, View.ld_unit_zero (S := S64x32) zeros,
    View.ld_unit_zero (S := S1x32) zeros, View.ld_unit_zero (S := S32x3) zeros, View.ld_unit_zero (S := S1x3) zeros]
  rw [stored]
  obtain ⟨e0, e1, e2, e3, e4, e5, e6, e7, e8, e9, e10, e11, e12, e13⟩ := block_indices t
  have h0 : ∀ y : S2000x64.Idx, ((cfg2.win 0).blk t).view.emb y = up t.val (in_range t) y := fun y =>
    funext fun a => Fin.ext (by
      match a with
      | ⟨0, _⟩ => show win2_0.index t (0 : Fin 2) * 2000 + 1 * (y 0).val = t.val * 2000 + (y 0).val; omega
      | ⟨1, _⟩ => show win2_0.index t (1 : Fin 2) * 64 + 1 * (y 1).val = (y 1).val; omega)
  have h1 : ∀ y : S1x64.Idx, ((cfg2.win 1).blk t).view.emb y = y := fun y =>
    funext fun a => Fin.ext (by
      match a with
      | ⟨0, _⟩ => show win2_1.index t (0 : Fin 2) * 1 + 1 * (y 0).val = (y 0).val; omega
      | ⟨1, _⟩ => show win2_1.index t (1 : Fin 2) * 64 + 1 * (y 1).val = (y 1).val; omega)
  have h2 : ∀ y : S64x32.Idx, ((cfg2.win 2).blk t).view.emb y = y := fun y =>
    funext fun a => Fin.ext (by
      match a with
      | ⟨0, _⟩ => show win2_2.index t (0 : Fin 2) * 64 + 1 * (y 0).val = (y 0).val; omega
      | ⟨1, _⟩ => show win2_2.index t (1 : Fin 2) * 32 + 1 * (y 1).val = (y 1).val; omega)
  have h3 : ∀ y : S1x32.Idx, ((cfg2.win 3).blk t).view.emb y = y := fun y =>
    funext fun a => Fin.ext (by
      match a with
      | ⟨0, _⟩ => show win2_3.index t (0 : Fin 2) * 1 + 1 * (y 0).val = (y 0).val; omega
      | ⟨1, _⟩ => show win2_3.index t (1 : Fin 2) * 32 + 1 * (y 1).val = (y 1).val; omega)
  have h4 : ∀ y : S32x3.Idx, ((cfg2.win 4).blk t).view.emb y = y := fun y =>
    funext fun a => Fin.ext (by
      match a with
      | ⟨0, _⟩ => show win2_4.index t (0 : Fin 2) * 32 + 1 * (y 0).val = (y 0).val; omega
      | ⟨1, _⟩ => show win2_4.index t (1 : Fin 2) * 3 + 1 * (y 1).val = (y 1).val; omega)
  have h5 : ∀ y : S1x3.Idx, ((cfg2.win 5).blk t).view.emb y = y := fun y =>
    funext fun a => Fin.ext (by
      match a with
      | ⟨0, _⟩ => show win2_5.index t (0 : Fin 2) * 1 + 1 * (y 0).val = (y 0).val; omega
      | ⟨1, _⟩ => show win2_5.index t (1 : Fin 2) * 3 + 1 * (y 1).val = (y 1).val; omega)
  have h6 : ∀ y : S2000x3.Idx, ((cfg2.win 6).blk t).view.emb y = up t.val (in_range t) y := fun y =>
    funext fun a => Fin.ext (by
      match a with
      | ⟨0, _⟩ => show win2_6.index t (0 : Fin 2) * 2000 + 1 * (y 0).val = t.val * 2000 + (y 0).val; omega
      | ⟨1, _⟩ => show win2_6.index t (1 : Fin 2) * 3 + 1 * (y 1).val = (y 1).val; omega)
  have g0 : ∀ y, iblk2 V c 0 t y = V c main_v64 (up t.val (in_range t) y) := fun y => congrArg (V c main_v64) (h0 y)
  have g1 : ∀ y, iblk2 V c 1 t y = V c main_v67 y := fun y => congrArg (V c main_v67) (h1 y)
  have g2 : ∀ y, iblk2 V c 2 t y = V c main_v65 y := fun y => congrArg (V c main_v65) (h2 y)
  have g3 : ∀ y, iblk2 V c 3 t y = V c main_v68 y := fun y => congrArg (V c main_v68) (h3 y)
  have g4 : ∀ y, iblk2 V c 4 t y = V c main_v66 y := fun y => congrArg (V c main_v66) (h4 y)
  have g5 : ∀ y, iblk2 V c 5 t y = V c main_v69 y := fun y => congrArg (V c main_v69) (h5 y)
  funext j
  have hl : (cfg2.win 6).cut (grid2.coords t) (chain (A := 2000) (iblk2 V c 0 t) (iblk2 V c 1 t) (iblk2 V c 2 t) (iblk2 V c 3 t) (iblk2 V c 4 t) (iblk2 V c 5 t)) j
      = chain (A := 2000) (iblk2 V c 0 t) (iblk2 V c 1 t) (iblk2 V c 2 t) (iblk2 V c 3 t) (iblk2 V c 4 t) (iblk2 V c 5 t) j := rfl
  have hr : ((cfg2.win 6).blk t).view.read (Elt Ideal) (chain (A := 50000) (V c main_v64) (V c main_v67) (V c main_v65) (V c main_v68) (V c main_v66) (V c main_v69)) j
      = chain (A := 50000) (V c main_v64) (V c main_v67) (V c main_v65) (V c main_v68) (V c main_v66) (V c main_v69) (((cfg2.win 6).blk t).view.emb j) := rfl
  refine hl.trans (Eq.trans ?_ hr.symm)
  exact block_value (V c main_v64) (V c main_v67) (V c main_v65) (V c main_v68) (V c main_v66) (V c main_v69)
    (iblk2 V c 0 t) (iblk2 V c 1 t) (iblk2 V c 2 t) (iblk2 V c 3 t) (iblk2 V c 4 t) (iblk2 V c 5 t) t.val (in_range t)
    g0 g1 g2 g3 g4 g5 j (((cfg2.win 6).blk t).view.emb j) (h6 j)

/-- An index of the result array is in point t's block iff each coordinate is in the block's range. -/
theorem mem_block (t : Fin cfg2.N) (i : S50000x3.Idx) :
    i ∈ ((cfg2.win 6).blk t).view.set ↔ ∀ a : Fin 2, win2_6.index t a * S2000x3.size a ≤ (i a).val ∧ (i a).val < win2_6.index t a * S2000x3.size a + S2000x3.size a := by
  show i ∈ ((View.whole main_v70).slice (win2_6.rect t)).set ↔ _
  rw [View.set_slice_whole, Rect.mem_set_unit]
  exact Iff.rfl

/-- Row r of the result lies in block r / 2000. -/
theorem covered (i : S50000x3.Idx) : ∃ t : Fin cfg2.N, (cfg2.win 6).flush t = true ∧ i ∈ ((cfg2.win 6).blk t).view.set := by
  have hi0 : (i 0).val < 50000 := (i 0).isLt
  have hi1 : (i 1).val < 3 := (i 1).isLt
  have hN : cfg2.N = 25 := N_2
  refine ⟨⟨(i 0).val / 2000, by rw [hN]; omega⟩, flush2_6 _, ?_⟩
  rw [mem_block]
  obtain ⟨e0, e1, e2, e3, e4, e5, e6, e7, e8, e9, e10, e11, e12, e13⟩ := block_indices ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [e12]; show (i 0).val / 2000 * 2000 ≤ (i 0).val ∧ (i 0).val < (i 0).val / 2000 * 2000 + 2000; omega
  | ⟨1, _⟩ =>
    show win2_6.index _ (1 : Fin 2) * 3 ≤ (i 1).val ∧ (i 1).val < win2_6.index _ (1 : Fin 2) * 3 + 3
    rw [e13]; omega

/-- After the stage the result array holds the chain of the arrays the stage found. -/
theorem result (c : Dev nD) : (dat2 V c).arrAt 6 cfg2.N
    = chain (V c main_v64) (V c main_v67) (V c main_v65) (V c main_v68) (V c main_v66) (V c main_v69) :=
  (dat2 V c).arrAt_eq_of_cover 6 _ (fun t _ => flushed_eq V c t) covered

end Cert.KernelIdeal.Stage2

end
-- ==== Proof.KernelValue.lean ====
/-
  The kernel program's result as the network of its arguments.

  The program runs host operations, a dense stage, host operations, a dense stage, host operations, a dense stage.
  The contents of the buffers at each boundary are read here from the first boundary to the last: the edge data (the
  two index lists and the normalised weights) are computed before the first stage and never written again; each dense
  stage leaves the function of the arrays it found that Stage0 / Stage1 / Stage2 prove; each stretch of host operations
  between two stages is one message-passing step `agg` on the stage's result, beside re-casts of the next stage's
  weights (the identity on the extended reals) and biases (a vector as one row).  Composed, the result buffer holds
  `net` of the eleven arguments (RefSpec.lean).
-/
import proofs.«175862_j63488206570136_2_alg».proof.Proof.Gen.KernelIdeal.Frame
import proofs.«175862_j63488206570136_2_alg».proof.Proof.RefSpec
import proofs.«175862_j63488206570136_2_alg».proof.Proof.Stage0
import proofs.«175862_j63488206570136_2_alg».proof.Proof.Stage1
import proofs.«175862_j63488206570136_2_alg».proof.Proof.Stage2
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Cert.Dense

variable (m : (ℓ : Loc nD τ sig) → Buf (Elt Ideal) ℓ) (ρ : Dev nD → PrngReg)

/-! ## Before the first stage: the edge data, the first stage's operands, the arguments -/

/-- The contents after the first stretch of host operations (the index lists, the edge weights with the self-loops'
    ones appended, the weighted in-degrees, their positivity flags and inverse square roots), named so that the later
    stretches read them as they stand. -/
def Wh (c : Dev nD) : Valuation τ sig (Elt Ideal) := W1 m ρ c

theorem W3_eq (c : Dev nD) : W3 m ρ c = StableHlo.after hostOps0_2 (StableHlo.after hostOps0_1 (Wh m ρ c)) := rfl

theorem first_main_v6 (c : Dev nD) : Wh m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl

theorem first_main_v7 (c : Dev nD) : Wh m ρ c (Proc.devRef .tc main_v7) = Cert.ReferenceIdeal.Read.val_main_v7 (F := Ideal) (m ((c : Thread nD τ).loc main_arg1)) := by
  show StableHlo.after hostOps0 (W0 m ρ c) (Proc.devRef .tc main_v7) = _
  after_results_simp <;> rfl

theorem first_main_v9 (c : Dev nD) : Wh m ρ c (Proc.devRef .tc main_v9) = Cert.ReferenceIdeal.Read.val_main_v9 (F := Ideal) (m ((c : Thread nD τ).loc main_arg2)) := by
  show StableHlo.after hostOps0 (W0 m ρ c) (Proc.devRef .tc main_v9) = _
  after_results_simp <;> rfl

theorem first_main_v14 (c : Dev nD) : Wh m ρ c (Proc.devRef .tc main_v14) = Cert.ReferenceIdeal.Read.val_main_v14 (F := Ideal) (m ((c : Thread nD τ).loc main_arg1)) (m ((c : Thread nD τ).loc main_arg2)) := by
  show StableHlo.after hostOps0 (W0 m ρ c) (Proc.devRef .tc main_v14) = _
  after_results_simp <;> rfl

theorem first_main_v15 (c : Dev nD) : Wh m ρ c (Proc.devRef .tc main_v15) = Cert.ReferenceIdeal.Read.val_main_v15 (F := Ideal) (m ((c : Thread nD τ).loc main_arg1)) (m ((c : Thread nD τ).loc main_arg2)) := by
  show StableHlo.after hostOps0 (W0 m ρ c) (Proc.devRef .tc main_v15) = _
  after_results_simp <;> rfl

theorem first_main_cst_2 (c : Dev nD) : Wh m ρ c (Proc.devRef .tc main_cst_2) = Cert.ReferenceIdeal.Read.val_main_cst_2 (F := Ideal) := by
  show StableHlo.after hostOps0 (W0 m ρ c) (Proc.devRef .tc main_cst_2) = _
  after_results_simp <;> rfl

theorem at3_main_v6 (c : Dev nD) : W3 m ρ c (Proc.devRef .tc main_v6) = Cert.ReferenceIdeal.Read.val_main_v6 (F := Ideal) (m ((c : Thread nD τ).loc main_arg1)) := by
  rw [W3_eq]
  after_results_simp
  exact first_main_v6 m ρ c

theorem at3_main_v7 (c : Dev nD) : W3 m ρ c (Proc.devRef .tc main_v7) = Cert.ReferenceIdeal.Read.val_main_v7 (F := Ideal) (m ((c : Thread nD τ).loc main_arg1)) := by
  rw [W3_eq]
  after_results_simp
  exact first_main_v7 m ρ c

/-- The contents after the selection of the inverse square roots (zero where the weighted in-degree is not positive),
    named for the same reason. -/
def Wm (c : Dev nD) : Valuation τ sig (Elt Ideal) := StableHlo.after hostOps0_1 (Wh m ρ c)

theorem W3_eq' (c : Dev nD) : W3 m ρ c = StableHlo.after hostOps0_2 (Wm m ρ c) := rfl

theorem mid_main_v6 (c : Dev nD) : Wm m ρ c (Proc.devRef .tc main_v6) = Cert.ReferenceIdeal.Read.val_main_v6 (F := Ideal) (m ((c : Thread nD τ).loc main_arg1)) := by
  show StableHlo.after hostOps0_1 (Wh m ρ c) (Proc.devRef .tc main_v6) = _
  after_results_simp
  exact first_main_v6 m ρ c

theorem mid_main_v7 (c : Dev nD) : Wm m ρ c (Proc.devRef .tc main_v7) = Cert.ReferenceIdeal.Read.val_main_v7 (F := Ideal) (m ((c : Thread nD τ).loc main_arg1)) := by
  show StableHlo.after hostOps0_1 (Wh m ρ c) (Proc.devRef .tc main_v7) = _
  after_results_simp
  exact first_main_v7 m ρ c

theorem mid_main_v9 (c : Dev nD) : Wm m ρ c (Proc.devRef .tc main_v9) = Cert.ReferenceIdeal.Read.val_main_v9 (F := Ideal) (m ((c : Thread nD τ).loc main_arg2)) := by
  show StableHlo.after hostOps0_1 (Wh m ρ c) (Proc.devRef .tc main_v9) = _
  after_results_simp
  exact first_main_v9 m ρ c

/-- The inverse square root of each node's weighted in-degree, zero where that is not positive. -/
theorem mid_main_v16 (c : Dev nD) : Wm m ρ c (Proc.devRef .tc main_v16) = Cert.ReferenceIdeal.Read.val_main_v16 (F := Ideal) (m ((c : Thread nD τ).loc main_arg1)) (m ((c : Thread nD τ).loc main_arg2)) := by
  show StableHlo.after hostOps0_1 (Wh m ρ c) (Proc.devRef .tc main_v16) = _
  after_results_simp
  simp only [cast_eq]
  rw [first_main_v14, first_main_v15, first_main_cst_2]
  rfl

/-- The normalised edge weights: the product of the inverse square roots of the weighted in-degrees at the two ends
    and the edge's weight, as both programs compute it. -/
theorem at3_main_v32 (c : Dev nD) : W3 m ρ c (Proc.devRef .tc main_v32) = Cert.ReferenceIdeal.Read.val_main_v32 (F := Ideal) (m ((c : Thread nD τ).loc main_arg1)) (m ((c : Thread nD τ).loc main_arg2)) := by
  rw [W3_eq']
  after_results_simp
  rw [mid_main_v6, mid_main_v7, mid_main_v9, mid_main_v16]
  rfl

/-- The first stage's left operand is X (its re-cast to the matrix unit's input format is the identity). -/
theorem at3_main_v33 (c : Dev nD) : W3 m ρ c (Proc.devRef .tc main_v33) = (m ((c : Thread nD τ).loc main_arg0)) := by
  show StableHlo.after hostOps0_2 (StableHlo.after hostOps0_1 (StableHlo.after hostOps0 (W0 m ρ c))) (Proc.devRef .tc main_v33) = _
  after_results_simp <;> rfl

theorem at3_main_v34 (c : Dev nD) : W3 m ρ c (Proc.devRef .tc main_v34) = (m ((c : Thread nD τ).loc main_arg3)) := by
  show StableHlo.after hostOps0_2 (StableHlo.after hostOps0_1 (StableHlo.after hostOps0 (W0 m ρ c))) (Proc.devRef .tc main_v34) = _
  after_results_simp <;> rfl

theorem at3_main_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

theorem at3_main_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

theorem at3_main_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

theorem at3_main_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl

theorem at3_main_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl

theorem at3_main_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl

theorem at3_main_arg10 (c : Dev nD) : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl

/-! ## The first stage, and what it leaves alone -/

theorem at4_main_v35 (c : Dev nD) : W4 m ρ c (Proc.devRef .tc main_v35) = prod (m ((c : Thread nD τ).loc main_arg0)) (m ((c : Thread nD τ).loc main_arg3)) := by
  refine (W4_arr m ρ c 2).trans ((Stage0.result (V3 m ρ) c).trans ?_)
  show prod (W3 m ρ c (Proc.devRef .tc main_v33)) (W3 m ρ c (Proc.devRef .tc main_v34)) = _
  rw [at3_main_v33, at3_main_v34]

theorem at4_main_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (at3_main_v6 m ρ c)

theorem at4_main_v7 (c : Dev nD) : W4 m ρ c (Proc.devRef .tc main_v7) = Cert.ReferenceIdeal.Read.val_main_v7 (F := Ideal) (m ((c : Thread nD τ).loc main_arg1)) :=
  (W4_of_ne m ρ c main_v7 (by decide)).trans (at3_main_v7 m ρ c)

theorem at4_main_v32 (c : Dev nD) : W4 m ρ c (Proc.devRef .tc main_v32) = Cert.ReferenceIdeal.Read.val_main_v32 (F := Ideal) (m ((c : Thread nD τ).loc main_arg1)) (m ((c : Thread nD τ).loc main_arg2)) :=
  (W4_of_ne m ρ c main_v32 (by decide)).trans (at3_main_v32 m ρ c)

theorem at4_main_arg4 (c : Dev nD) : W4 m ρ c (Proc.devRef .tc main_arg4) = (m ((c : Thread nD τ).loc main_arg4)) :=
  (W4_of_ne m ρ c main_arg4 (by decide)).trans (at3_main_arg4 m ρ c)

theorem at4_main_arg5 (c : Dev nD) : W4 m ρ c (Proc.devRef .tc main_arg5) = (m ((c : Thread nD τ).loc main_arg5)) :=
  (W4_of_ne m ρ c main_arg5 (by decide)).trans (at3_main_arg5 m ρ c)

theorem at4_main_arg6 (c : Dev nD) : W4 m ρ c (Proc.devRef .tc main_arg6) = (m ((c : Thread nD τ).loc main_arg6)) :=
  (W4_of_ne m ρ c main_arg6 (by decide)).trans (at3_main_arg6 m ρ c)

theorem at4_main_arg7 (c : Dev nD) : W4 m ρ c (Proc.devRef .tc main_arg7) = (m ((c : Thread nD τ).loc main_arg7)) :=
  (W4_of_ne m ρ c main_arg7 (by decide)).trans (at3_main_arg7 m ρ c)

theorem at4_main_arg8 (c : Dev nD) : W4 m ρ c (Proc.devRef .tc main_arg8) = (m ((c : Thread nD τ).loc main_arg8)) :=
  (W4_of_ne m ρ c main_arg8 (by decide)).trans (at3_main_arg8 m ρ c)

theorem at4_main_arg9 (c : Dev nD) : W4 m ρ c (Proc.devRef .tc main_arg9) = (m ((c : Thread nD τ).loc main_arg9)) :=
  (W4_of_ne m ρ c main_arg9 (by decide)).trans (at3_main_arg9 m ρ c)

theorem at4_main_arg10 (c : Dev nD) : W4 m ρ c (Proc.devRef .tc main_arg10) = (m ((c : Thread nD τ).loc main_arg10)) :=
  (W4_of_ne m ρ c main_arg10 (by decide)).trans (at3_main_arg10 m ρ c)

/-! ## Between the first and the second stage: one message-passing step, and the second stage's bias and weights -/

theorem at5_main_v48 (c : Dev nD) : W5 m ρ c (Proc.devRef .tc main_v48)
    = Cert.ReferenceIdeal.Hand.agg (m ((c : Thread nD τ).loc main_arg1)) (m ((c : Thread nD τ).loc main_arg2)) (prod (m ((c : Thread nD τ).loc main_arg0)) (m ((c : Thread nD τ).loc main_arg3))) := by
  show StableHlo.after hostOps1 (W4 m ρ c) (Proc.devRef .tc main_v48) = _
  after_results_simp
  rw [at4_main_v6, at4_main_v7, at4_main_v32, at4_main_v35]
  rfl

theorem at5_main_v49 (c : Dev nD) : W5 m ρ c (Proc.devRef .tc main_v49) = (m ((c : Thread nD τ).loc main_arg5)) := by
  show StableHlo.after hostOps1 (W4 m ρ c) (Proc.devRef .tc main_v49) = _
  after_results_simp
  rw [at4_main_arg5]
  rfl

/-- The bias vector re-cast as one row is the vector broadcast along axis 1 into one row. -/
theorem at5_main_v50 (c : Dev nD) : W5 m ρ c (Proc.devRef .tc main_v50) = Cert.ReferenceIdeal.Read.val_main_v47 (F := Ideal) (m ((c : Thread nD τ).loc main_arg4)) := by
  show StableHlo.after hostOps1 (W4 m ρ c) (Proc.devRef .tc main_v50) = _
  after_results_simp
  rw [at4_main_arg4]
  exact row_cast_eq_broadcast _ _ _

theorem at5_main_v6 (c : Dev nD) : W5 m ρ c (Proc.devRef .tc main_v6) = Cert.ReferenceIdeal.Read.val_main_v6 (F := Ideal) (m ((c : Thread nD τ).loc main_arg1)) := by
  show StableHlo.after hostOps1 (W4 m ρ c) (Proc.devRef .tc main_v6) = _
  after_results_simp
  exact at4_main_v6 m ρ c

theorem at5_main_v7 (c : Dev nD) : W5 m ρ c (Proc.devRef .tc main_v7) = Cert.ReferenceIdeal.Read.val_main_v7 (F := Ideal) (m ((c : Thread nD τ).loc main_arg1)) := by
  show StableHlo.after hostOps1 (W4 m ρ c) (Proc.devRef .tc main_v7) = _
  after_results_simp
  exact at4_main_v7 m ρ c

theorem at5_main_v32 (c : Dev nD) : W5 m ρ c (Proc.devRef .tc main_v32) = Cert.ReferenceIdeal.Read.val_main_v32 (F := Ideal) (m ((c : Thread nD τ).loc main_arg1)) (m ((c : Thread nD τ).loc main_arg2)) := by
  show StableHlo.after hostOps1 (W4 m ρ c) (Proc.devRef .tc main_v32) = _
  after_results_simp
  exact at4_main_v32 m ρ c

theorem at5_main_arg6 (c : Dev nD) : W5 m ρ c (Proc.devRef .tc main_arg6) = (m ((c : Thread nD τ).loc main_arg6)) := by
  show StableHlo.after hostOps1 (W4 m ρ c) (Proc.devRef .tc main_arg6) = _
  after_results_simp
  exact at4_main_arg6 m ρ c

theorem at5_main_arg7 (c : Dev nD) : W5 m ρ c (Proc.devRef .tc main_arg7) = (m ((c : Thread nD τ).loc main_arg7)) := by
  show StableHlo.after hostOps1 (W4 m ρ c) (Proc.devRef .tc main_arg7) = _
  after_results_simp
  exact at4_main_arg7 m ρ c

theorem at5_main_arg8 (c : Dev nD) : W5 m ρ c (Proc.devRef .tc main_arg8) = (m ((c : Thread nD τ).loc main_arg8)) := by
  show StableHlo.after hostOps1 (W4 m ρ c) (Proc.devRef .tc main_arg8) = _
  after_results_simp
  exact at4_main_arg8 m ρ c

theorem at5_main_arg9 (c : Dev nD) : W5 m ρ c (Proc.devRef .tc main_arg9) = (m ((c : Thread nD τ).loc main_arg9)) := by
  show StableHlo.after hostOps1 (W4 m ρ c) (Proc.devRef .tc main_arg9) = _
  after_results_simp
  exact at4_main_arg9 m ρ c

theorem at5_main_arg10 (c : Dev nD) : W5 m ρ c (Proc.devRef .tc main_arg10) = (m ((c : Thread nD τ).loc main_arg10)) := by
  show StableHlo.after hostOps1 (W4 m ρ c) (Proc.devRef .tc main_arg10) = _
  after_results_simp
  exact at4_main_arg10 m ρ c

/-! ## The second stage, and what it leaves alone -/

theorem at6_main_v51 (c : Dev nD) : W6 m ρ c (Proc.devRef .tc main_v51)
    = Cert.ReferenceIdeal.Hand.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 3).trans ((Stage1.result (V5 m ρ) c).trans ?_)
  show prod (act (W5 m ρ c (Proc.devRef .tc main_v48)) (W5 m ρ c (Proc.devRef .tc main_v50))) (W5 m ρ c (Proc.devRef .tc main_v49)) = _
  rw [at5_main_v48, at5_main_v50, at5_main_v49]
  rfl

theorem at6_main_v6 (c : Dev nD) : W6 m ρ c (Proc.devRef .tc main_v6) = Cert.ReferenceIdeal.Read.val_main_v6 (F := Ideal) (m ((c : Thread nD τ).loc main_arg1)) :=
  (W6_of_ne m ρ c main_v6 (by decide)).trans (at5_main_v6 m ρ c)

theorem at6_main_v7 (c : Dev nD) : W6 m ρ c (Proc.devRef .tc main_v7) = Cert.ReferenceIdeal.Read.val_main_v7 (F := Ideal) (m ((c : Thread nD τ).loc main_arg1)) :=
  (W6_of_ne m ρ c main_v7 (by decide)).trans (at5_main_v7 m ρ c)

theorem at6_main_v32 (c : Dev nD) : W6 m ρ c (Proc.devRef .tc main_v32) = Cert.ReferenceIdeal.Read.val_main_v32 (F := Ideal) (m ((c : Thread nD τ).loc main_arg1)) (m ((c : Thread nD τ).loc main_arg2)) :=
  (W6_of_ne m ρ c main_v32 (by decide)).trans (at5_main_v32 m ρ c)

theorem at6_main_arg6 (c : Dev nD) : W6 m ρ c (Proc.devRef .tc main_arg6) = (m ((c : Thread nD τ).loc main_arg6)) :=
  (W6_of_ne m ρ c main_arg6 (by decide)).trans (at5_main_arg6 m ρ c)

theorem at6_main_arg7 (c : Dev nD) : W6 m ρ c (Proc.devRef .tc main_arg7) = (m ((c : Thread nD τ).loc main_arg7)) :=
  (W6_of_ne m ρ c main_arg7 (by decide)).trans (at5_main_arg7 m ρ c)

theorem at6_main_arg8 (c : Dev nD) : W6 m ρ c (Proc.devRef .tc main_arg8) = (m ((c : Thread nD τ).loc main_arg8)) :=
  (W6_of_ne m ρ c main_arg8 (by decide)).trans (at5_main_arg8 m ρ c)

theorem at6_main_arg9 (c : Dev nD) : W6 m ρ c (Proc.devRef .tc main_arg9) = (m ((c : Thread nD τ).loc main_arg9)) :=
  (W6_of_ne m ρ c main_arg9 (by decide)).trans (at5_main_arg9 m ρ c)

theorem at6_main_arg10 (c : Dev nD) : W6 m ρ c (Proc.devRef .tc main_arg10) = (m ((c : Thread nD τ).loc main_arg10)) :=
  (W6_of_ne m ρ c main_arg10 (by decide)).trans (at5_main_arg10 m ρ c)

/-! ## Between the second and the third stage: the second message-passing step, and the classifier's biases and weights -/

theorem at7_main_v64 (c : Dev nD) : W7 m ρ c (Proc.devRef .tc main_v64)
    = Cert.ReferenceIdeal.Hand.agg (m ((c : Thread nD τ).loc main_arg1)) (m ((c : Thread nD τ).loc main_arg2)) (Cert.ReferenceIdeal.Hand.hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps2 (W6 m ρ c) (Proc.devRef .tc main_v64) = _
  after_results_simp
  rw [at6_main_v6, at6_main_v7, at6_main_v32, at6_main_v51]
  rfl

theorem at7_main_v65 (c : Dev nD) : W7 m ρ c (Proc.devRef .tc main_v65) = (m ((c : Thread nD τ).loc main_arg7)) := by
  show StableHlo.after hostOps2 (W6 m ρ c) (Proc.devRef .tc main_v65) = _
  after_results_simp
  rw [at6_main_arg7]
  rfl

theorem at7_main_v66 (c : Dev nD) : W7 m ρ c (Proc.devRef .tc main_v66) = (m ((c : Thread nD τ).loc main_arg9)) := by
  show StableHlo.after hostOps2 (W6 m ρ c) (Proc.devRef .tc main_v66) = _
  after_results_simp
  rw [at6_main_arg9]
  rfl

theorem at7_main_v67 (c : Dev nD) : W7 m ρ c (Proc.devRef .tc main_v67) = Cert.ReferenceIdeal.Read.val_main_v65 (F := Ideal) (m ((c : Thread nD τ).loc main_arg6)) := by
  show StableHlo.after hostOps2 (W6 m ρ c) (Proc.devRef .tc main_v67) = _
  after_results_simp
  rw [at6_main_arg6]
  exact row_cast_eq_broadcast _ _ _

theorem at7_main_v68 (c : Dev nD) : W7 m ρ c (Proc.devRef .tc main_v68) = Cert.ReferenceIdeal.Read.val_main_v70 (F := Ideal) (m ((c : Thread nD τ).loc main_arg8)) := by
  show StableHlo.after hostOps2 (W6 m ρ c) (Proc.devRef .tc main_v68) = _
  after_results_simp
  rw [at6_main_arg8]
  exact row_cast_eq_broadcast _ _ _

theorem at7_main_v69 (c : Dev nD) : W7 m ρ c (Proc.devRef .tc main_v69) = Cert.ReferenceIdeal.Read.val_main_v75 (F := Ideal) (m ((c : Thread nD τ).loc main_arg10)) := by
  show StableHlo.after hostOps2 (W6 m ρ c) (Proc.devRef .tc main_v69) = _
  after_results_simp
  rw [at6_main_arg10]
  exact row_cast_eq_broadcast _ _ _

/-! ## The third stage: the result -/

/-- After the last launch the result buffer holds the network of the eleven arguments. -/
theorem result (c : Dev nD) : W8 m ρ c (Proc.devRef .tc main_v70)
    = Cert.ReferenceIdeal.Hand.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 6).trans ((Stage2.result (V7 m ρ) c).trans ?_)
  show Stage2.chain (W7 m ρ c (Proc.devRef .tc main_v64)) (W7 m ρ c (Proc.devRef .tc main_v67)) (W7 m ρ c (Proc.devRef .tc main_v65))
      (W7 m ρ c (Proc.devRef .tc main_v68)) (W7 m ρ c (Proc.devRef .tc main_v66)) (W7 m ρ c (Proc.devRef .tc main_v69)) = _
  rw [at7_main_v64, at7_main_v67, at7_main_v65, at7_main_v68, at7_main_v66, at7_main_v69]
  rfl

end Cert.KernelIdeal.Whole

end
-- ==== Proof.lean ====
/-
  A two-layer graph-convolution network with a two-layer classifier on 50000 nodes, as a kernel program and as its
  reference: the two compute the same function of their eleven arguments on the extended reals.

  Both programs compute the edge data (the source and target index lists with one self-loop per node appended, and the
  symmetrically normalised edge weights) by the same host operations, and both pass messages along the edges by the
  same gather / scale / scatter-add.  They differ in how the dense steps are spelt: the reference has a dot_general and
  broadcasts for each product and bias; the kernel program has three launches that sweep the 50000 rows in 25 blocks of
  2000 — X · W0; relu (· + b0) · W1; relu (relu (· + b1) · cW1 + cb1) · cW2 + cb2 — with matrix-unit products into zero
  accumulators.  At the extended reals a product is the same sum either way, a change of float format is the identity,
  and every dense step acts row by row, so the blocks of the kernel's results are the blocks of the reference's.  No
  arithmetic law beyond 0 + s = s is used, so the precondition (finite inputs) is never opened.

  Stage0 / Stage1 / Stage2: what each launch leaves in its result array.  KernelRun: the whole program's run.
  KernelValue: the result buffer as `net` of the arguments.  RefSpec: `net`, and the reference's result as `net`.
  The kernel program's idealization rewrote nothing, so `preserves` is trivial.
-/
import proofs.«175862_j63488206570136_2_alg».proof.Defs
import proofs.«175862_j63488206570136_2_alg».proof.Proof.Gen.Kernel
import proofs.«175862_j63488206570136_2_alg».proof.Proof.Gen.Kernel.Skeleton
import proofs.«175862_j63488206570136_2_alg».proof.Proof.Gen.Kernel.Launch
import proofs.«175862_j63488206570136_2_alg».proof.Proof.Gen.Kernel.Points
import proofs.«175862_j63488206570136_2_alg».proof.Proof.Gen.Kernel.Frame
import proofs.«175862_j63488206570136_2_alg».proof.Proof.Gen.KernelIdeal
import proofs.«175862_j63488206570136_2_alg».proof.Proof.Gen.KernelIdeal.Skeleton
import proofs.«175862_j63488206570136_2_alg».proof.Proof.Gen.KernelIdeal.Launch
import proofs.«175862_j63488206570136_2_alg».proof.Proof.Gen.KernelIdeal.Points
import proofs.«175862_j63488206570136_2_alg».proof.Proof.Gen.KernelIdeal.Frame
import proofs.«175862_j63488206570136_2_alg».proof.Proof.Gen.ReferenceIdeal
import proofs.«175862_j63488206570136_2_alg».proof.Proof.Gen.Pre_finite_inputs
import proofs.«175862_j63488206570136_2_alg».proof.Proof.Gen.ReferenceIdeal.Run
import proofs.«175862_j63488206570136_2_alg».proof.Proof.Gen.ReferenceIdeal.Read
import proofs.«175862_j63488206570136_2_alg».proof.Proof.RefSpec
import proofs.«175862_j63488206570136_2_alg».proof.Proof.KernelRun
import proofs.«175862_j63488206570136_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the arguments in their result buffers; the arguments agree. -/
theorem algebraic : Cert.algebraic_KernelIdeal_ReferenceIdeal := by
  intro m ρ m' ρ' _ hagree
  refine ⟨fun c => Cert.KernelIdeal.Gen.W8 m ρ c (Proc.devRef .tc Cert.KernelIdeal.main_v70), Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v77 m' c = Cert.KernelIdeal.Gen.W8 m ρ c (Proc.devRef .tc Cert.KernelIdeal.main_v70)
  rw [Cert.ReferenceIdeal.Read.val_main_v77_eq, Cert.ReferenceIdeal.Hand.reference_eq, Cert.KernelIdeal.Whole.result]
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
